-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3200000x3 : Shape := ⟨2, ![3200000, 3]⟩
abbrev S3200000 : Shape := ⟨1, ![3200000]⟩
abbrev S2x3200000 : Shape := ⟨2, ![2, 3200000]⟩
abbrev S100000 : Shape := ⟨1, ![100000]⟩
abbrev S_ : Shape := ⟨0, ![]⟩

class Facts : Prop where
  bcast_S_S3200000x3 : S_.BroadcastsInDim S3200000x3 (![] : Fin 0 → Fin S3200000x3.rank)
  reducesTo_S3200000x3_S_d0_1 : S3200000x3.ReducesTo [0, 1] S_
  h_S_ : 0 < S_.numel
  bcast_S_S3200000 : S_.BroadcastsInDim S3200000 (![] : Fin 0 → Fin S3200000.rank)
  reducesTo_S3200000_S_d0 : S3200000.ReducesTo [0] S_

variable [Facts]

def fn {F : FTy → Type} [FloatOps F] (main_arg0 : FVec F S3200000x3 .f32) (main_arg1 : FVec F S3200000 .f32) (main_arg2 : FVec F S3200000 .f32) (main_arg3 : IVec S2x3200000 32) (main_arg4 : IVec S100000 32) : IVec S_ 1 :=
  let main_v0 : FVec F S3200000x3 .f32 := Host.absf main_arg0
  let main_cst : FVec F S_ .f32 := constant S_ .f32 0x7F800000#32
  let main_v1 : FVec F S3200000x3 .f32 := broadcastInDim S3200000x3 ![] bcast_S_S3200000x3 main_cst
  let main_v2 : IVec S3200000x3 1 := cmpf .olt main_v0 main_v1
  let main_c : IVec S_ 1 := constantI S_ 1 1#1
  let main_v3 : IVec S_ 1 := (fun x v => Host.reduce IntOp.andi x v reducesTo_S3200000x3_S_d0_1 h_S_) main_v2 main_c
  let main_v4 : FVec F S3200000 .f32 := Host.absf main_arg1
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S3200000 .f32 := Host.absf main_arg2
  let main_cst_2 : FVec F S_ .f32 := constant S_ .f32 0x7F800000#32
  let main_v10 : FVec F S3200000 .f32 := broadcastInDim S3200000 ![] bcast_S_S3200000 main_cst_2
  let main_v11 : IVec S3200000 1 := cmpf .olt main_v9 main_v10
  let main_c_3 : IVec S_ 1 := constantI S_ 1 1#1
  let main_v12 : IVec S_ 1 := (fun x v => Host.reduce IntOp.andi x v reducesTo_S3200000_S_d0 h_S_) main_v11 main_c_3
  let main_v13 : IVec S_ 1 := andi main_v8 main_v12
  main_v13
-- ==== Kernel.lean ====
abbrev S3200000x3 : Shape := ⟨2, ![3200000, 3]⟩
abbrev S3200000 : Shape := ⟨1, ![3200000]⟩
abbrev S2x3200000 : Shape := ⟨2, ![2, 3200000]⟩
abbrev S100000 : Shape := ⟨1, ![100000]⟩
abbrev S3x3200000 : Shape := ⟨2, ![3, 3200000]⟩
abbrev S1x3200000 : Shape := ⟨2, ![1, 3200000]⟩
abbrev S3x80000 : Shape := ⟨2, ![3, 80000]⟩
abbrev S1x80000 : Shape := ⟨2, ![1, 80000]⟩
abbrev S_ : Shape := ⟨0, ![]⟩
abbrev S3200000x1 : Shape := ⟨2, ![3200000, 1]⟩
abbrev S3x100000 : Shape := ⟨2, ![3, 100000]⟩
abbrev S100000x3 : Shape := ⟨2, ![100000, 3]⟩

abbrev nBuf : Space → Nat
  | .hbm => 25
  | .vmem => 8
  | .smem => 0
  | _ => 0

abbrev bufTy : (tb : Table) → Fin (tcTables nBuf tb) → BufTy
  | .hbm, ⟨0, _⟩ => ⟨S3200000x3, .f32⟩
  | .hbm, ⟨1, _⟩ => ⟨S3200000, .f32⟩
  | .hbm, ⟨2, _⟩ => ⟨S3200000, .f32⟩
  | .hbm, ⟨3, _⟩ => ⟨S2x3200000, .i32⟩
  | .hbm, ⟨4, _⟩ => ⟨S100000, .i32⟩
  | .hbm, ⟨5, _⟩ => ⟨S3x3200000, .f32⟩
  | .hbm, ⟨6, _⟩ => ⟨S1x3200000, .f32⟩
  | .hbm, ⟨7, _⟩ => ⟨S1x3200000, .f32⟩
  | .hbm, ⟨8, _⟩ => ⟨S3x3200000, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S_, .f32⟩
  | .hbm, ⟨14, _⟩ => ⟨S100000, .f32⟩
  | .hbm, ⟨15, _⟩ => ⟨S3200000x1, .i32⟩
  | .hbm, ⟨16, _⟩ => ⟨S3x100000, .f32⟩
  | .hbm, ⟨17, _⟩ => ⟨S3x100000, .f32⟩
  | .hbm, ⟨18, _⟩ => ⟨S_, .f32⟩
  | .hbm, ⟨19, _⟩ => ⟨S100000, .f32⟩
  | .hbm, ⟨20, _⟩ => ⟨S3200000x1, .i32⟩
  | .hbm, ⟨21, _⟩ => ⟨S3x100000, .f32⟩
  | .hbm, ⟨22, _⟩ => ⟨S3x100000, .f32⟩
  | .hbm, ⟨23, _⟩ => ⟨S3x100000, .f32⟩
  | .hbm, ⟨24, _⟩ => ⟨S100000x3, .f32⟩
  | .local _ .vmem, ⟨0, _⟩ => ⟨S3x80000, .f32⟩
  | .local _ .vmem, ⟨1, _⟩ => ⟨S3x80000, .f32⟩
  | .local _ .vmem, ⟨2, _⟩ => ⟨S1x80000, .f32⟩
  | .local _ .vmem, ⟨3, _⟩ => ⟨S1x80000, .f32⟩
  | .local _ .vmem, ⟨4, _⟩ => ⟨S1x80000, .f32⟩
  | .local _ .vmem, ⟨5, _⟩ => ⟨S1x80000, .f32⟩
  | .local _ .vmem, ⟨6, _⟩ => ⟨S3x80000, .f32⟩
  | .local _ .vmem, ⟨7, _⟩ => ⟨S3x80000, .f32⟩
  | _, _ => ⟨S3200000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x80000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x80000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x80000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x80000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S3200000x3_S3x3200000_1_0 : S3200000x3.Transposes [1, 0] S3x3200000
  shapeCasts_S3200000_S1x3200000 : S3200000.ShapeCasts S1x3200000
  inb_S3x80000_S3x80000_0_0 : ∀ a, (![0, 0] : Fin 2 → Nat) a + S3x80000.size a ≤ S3x80000.size a
  h_S3x80000 : 0 < S3x80000.numel
  shapeCasts_S3x80000_S3x80000 : S3x80000.ShapeCasts S3x80000
  inb_S1x80000_S1x80000_0_0 : ∀ a, (![0, 0] : Fin 2 → Nat) a + S1x80000.size a ≤ S1x80000.size a
  h_S1x80000 : 0 < S1x80000.numel
  shapeCasts_S1x80000_S1x80000 : S1x80000.ShapeCasts S1x80000
  slices_S3x80000_o0_0_S1x80000 : S3x80000.Slices ![0, 0] S1x80000
  slices_S3x80000_o1_0_S1x80000 : S3x80000.Slices ![1, 0] S1x80000
  slices_S3x80000_o2_0_S1x80000 : S3x80000.Slices ![2, 0] S1x80000
  broadcasts_S1x80000_S3x80000 : S1x80000.Broadcasts S3x80000
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S3x100000_1 : S100000.BroadcastsInDim S3x100000 (![1] : Fin 1 → Fin S3x100000.rank)
  transposes_S3x100000_S100000x3_1_0 : S3x100000.Transposes [1, 0] S100000x3
  scatter_S3x100000_S3200000x1_S3x3200000_0_1_1_1_wf : ScatterDims.WF S3x100000 S3200000x1 S3x3200000 [0] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x80000.size a ≤ S3x3200000.size a
  hwx0_0 : ∀ i : grid0.Coords, EltTy.bits .f32 = 32 ∨ (Rect.block (s := S3x3200000) S3x80000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x80000.size a ≤ S1x3200000.size a
  hwx0_1 : ∀ i : grid0.Coords, EltTy.bits .f32 = 32 ∨ (Rect.block (s := S1x3200000) S1x80000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x80000.size a ≤ S1x3200000.size a
  hwx0_2 : ∀ i : grid0.Coords, EltTy.bits .f32 = 32 ∨ (Rect.block (s := S1x3200000) S1x80000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x80000.size a ≤ S3x3200000.size a
  hwx0_3 : ∀ i : grid0.Coords, EltTy.bits .f32 = 32 ∨ (Rect.block (s := S3x3200000) S3x80000.size (cc0_transform_3 i) (hinb0_3 i)).WholeWords (EltTy.packing .f32)

variable [Facts₀]

def scatter_S3x100000_S3200000x1_S3x3200000_0_1_1_1 : ScatterDims S3x100000 S3200000x1 S3x3200000 where
  updateWindowDims := [0]
  insertedWindowDims := [1]
  scatterDimsToOperandDims := [1]
  indexVectorDim := 1
  wf := scatter_S3x100000_S3200000x1_S3x3200000_0_1_1_1_wf

abbrev win0_0 : Pipeline.Window sig grid0 :=
  Pipeline.Window.ofSpec (Memref.whole main_v0) S3x80000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x80000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x80000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S3x80000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S3200000x3 : Shape := ⟨2, ![3200000, 3]⟩
abbrev S3200000 : Shape := ⟨1, ![3200000]⟩
abbrev S2x3200000 : Shape := ⟨2, ![2, 3200000]⟩
abbrev S100000 : Shape := ⟨1, ![100000]⟩
abbrev S_ : Shape := ⟨0, ![]⟩
abbrev S1x3200000 : Shape := ⟨2, ![1, 3200000]⟩
abbrev S100000x3 : Shape := ⟨2, ![100000, 3]⟩
abbrev S3200000x1 : Shape := ⟨2, ![3200000, 1]⟩

abbrev nBuf : Space → Nat
  | .hbm => 40
  | .vmem => 0
  | .smem => 0
  | _ => 0

abbrev bufTy : (tb : Table) → Fin (tcTables nBuf tb) → BufTy
  | .hbm, ⟨0, _⟩ => ⟨S3200000x3, .f32⟩
  | .hbm, ⟨1, _⟩ => ⟨S3200000, .f32⟩
  | .hbm, ⟨2, _⟩ => ⟨S3200000, .f32⟩
  | .hbm, ⟨3, _⟩ => ⟨S2x3200000, .i32⟩
  | .hbm, ⟨4, _⟩ => ⟨S100000, .i32⟩
  | .hbm, ⟨5, _⟩ => ⟨S3200000x3, .f32⟩
  | .hbm, ⟨6, _⟩ => ⟨S_, .f32⟩
  | .hbm, ⟨7, _⟩ => ⟨S3200000, .f32⟩
  | .hbm, ⟨8, _⟩ => ⟨S3200000, .f32⟩
  | .hbm, ⟨9, _⟩ => ⟨S3200000, .f32⟩
  | .hbm, ⟨10, _⟩ => ⟨S3200000, .f32⟩
  | .hbm, ⟨11, _⟩ => ⟨S3200000, .f32⟩
  | .hbm, ⟨12, _⟩ => ⟨S3200000, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S3200000, .f32⟩
  | .hbm, ⟨17, _⟩ => ⟨S3200000, .f32⟩
  | .hbm, ⟨18, _⟩ => ⟨S3200000, .f32⟩
  | .hbm, ⟨19, _⟩ => ⟨S3200000, .f32⟩
  | .hbm, ⟨20, _⟩ => ⟨S3200000, .f32⟩
  | .hbm, ⟨21, _⟩ => ⟨S3200000, .f32⟩
  | .hbm, ⟨22, _⟩ => ⟨S3200000x3, .f32⟩
  | .hbm, ⟨23, _⟩ => ⟨S3200000x3, .f32⟩
  | .hbm, ⟨24, _⟩ => ⟨S3200000x3, .f32⟩
  | .hbm, ⟨25, _⟩ => ⟨S3200000x3, .f32⟩
  | .hbm, ⟨26, _⟩ => ⟨S3200000x3, .f32⟩
  | .hbm, ⟨27, _⟩ => ⟨S1x3200000, .i32⟩
  | .hbm, ⟨28, _⟩ => ⟨S3200000, .i32⟩
  | .hbm, ⟨29, _⟩ => ⟨S_, .f32⟩
  | .hbm, ⟨30, _⟩ => ⟨S100000x3, .f32⟩
  | .hbm, ⟨31, _⟩ => ⟨S3200000x1, .i32⟩
  | .hbm, ⟨32, _⟩ => ⟨S100000x3, .f32⟩
  | .hbm, ⟨33, _⟩ => ⟨S1x3200000, .i32⟩
  | .hbm, ⟨34, _⟩ => ⟨S3200000, .i32⟩
  | .hbm, ⟨35, _⟩ => ⟨S_, .f32⟩
  | .hbm, ⟨36, _⟩ => ⟨S100000x3, .f32⟩
  | .hbm, ⟨37, _⟩ => ⟨S3200000x1, .i32⟩
  | .hbm, ⟨38, _⟩ => ⟨S100000x3, .f32⟩
  | .hbm, ⟨39, _⟩ => ⟨S100000x3, .f32⟩
  | _, _ => ⟨S3200000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  reducesTo_S3200000x3_S3200000_d1 : S3200000x3.ReducesTo [1] S3200000
  h_S_ : 0 < S_.numel
  reducesTo_S3200000_S_d0 : S3200000.ReducesTo [0] S_
  bcast_S_S3200000 : S_.BroadcastsInDim S3200000 (![] : Fin 0 → Fin S3200000.rank)
  bcast_S3200000_S3200000x3_0 : S3200000.BroadcastsInDim S3200000x3 (![0] : Fin 1 → Fin S3200000x3.rank)
  slices_S2x3200000_S1x3200000_0_0 : S2x3200000.Slices ![0, 0] S1x3200000
  shapeCasts_S1x3200000_S3200000 : S1x3200000.ShapeCasts S3200000
  bcast_S_S100000x3 : S_.BroadcastsInDim S100000x3 (![] : Fin 0 → Fin S100000x3.rank)
  bcast_S3200000_S3200000x1_0 : S3200000.BroadcastsInDim S3200000x1 (![0] : Fin 1 → Fin S3200000x1.rank)
  slices_S2x3200000_S1x3200000_1_0 : S2x3200000.Slices ![1, 0] S1x3200000
  scatter_S100000x3_S3200000x1_S3200000x3_1_0_0_1_wf : ScatterDims.WF S100000x3 S3200000x1 S3200000x3 [1] [0] [0] 1

variable [Facts₀]

def scatter_S100000x3_S3200000x1_S3200000x3_1_0_0_1 : ScatterDims S100000x3 S3200000x1 S3200000x3 where
  updateWindowDims := [1]
  insertedWindowDims := [0]
  scatterDimsToOperandDims := [0]
  indexVectorDim := 1
  wf := scatter_S100000x3_S3200000x1_S3200000x3_1_0_0_1_wf

class Facts : Prop extends Facts₀ where

variable [Facts]
-- ==== Proof.Finite.lean ====
/-
  Finite inputs are real numbers.

  The precondition says of each of the three float arrays that every entry's absolute value compares below the
  `+∞` word, all the comparisons and-ed into one bit which is 1. On the extended reals `|x| < ⊤` holds of exactly the
  real numbers, so under the precondition every entry of the displacements and of the two coefficient arrays is
  the coercion of a real.
-/
import proofs.«179678_j8821862826155_2_alg».proof.Pre_finite_inputs
import Idealize.ShloMosaic.PureOps.Ideal
import Idealize.ShloMosaic.Lib.ReduceAll
import Idealize.ShloMosaic.Lib.ValueIdx
import Idealize.ShloMosaic.Lib.Pipeline.Value

noncomputable section

namespace Cert.FiniteInputs

open Idealize.ShloMosaic Cert.Pre_finite_inputs

/-- The word `0x7F800000` denotes `+∞`. -/
theorem word_inf : Ideal.ofBits .f32 0x7F800000#32 = (⊤ : EReal) := by
  simp [Ideal.ofBits, Ideal.ieee]

/-- An extended real whose absolute value `max x (-x)` is below `+∞` is a real number. -/
theorem real_of_abs_lt_inf (x : EReal)
    (h : Ideal.cmp .olt (max x (-x)) (Ideal.ofBits .f32 0x7F800000#32) = 1#1) : ∃ r : ℝ, x = r := by
  rw [word_inf] at h
  induction x using EReal.rec with
  | bot => simp [Ideal.cmp] at h
  | coe r => exact ⟨r, rfl⟩
  | top => simp [Ideal.cmp] at h

instance : Subsingleton S_.Idx := ⟨fun _ _ => funext fun d => d.elim0⟩

/-- One `jnp.all(|x| < inf)` that came out 1: every entry of `x` is a real number. -/
theorem real_of_all {s : Shape} (x : FVec Ideal s .f32) (hb : S_.BroadcastsInDim s (![] : Fin 0 → Fin s.rank))
    {axes : List (Fin s.rank)} (hr : s.ReducesTo axes S_) (hu : 0 < S_.numel)
    (h : Host.reduce IntOp.andi (cmpf .olt (Host.absf x) (broadcastInDim s ![] hb (constant S_ .f32 0x7F800000#32)))
      (constantI S_ 1 1#1) hr hu ValueIdx.ix0 = 1#1) (i : s.Idx) : ∃ r : ℝ, x i = r := by
  have e := Host.reduce_andi_all _ _ hr hu _ h i
  have eb : broadcastInDim s ![] hb (constant (F := Ideal) S_ .f32 0x7F800000#32) i = Ideal.ofBits .f32 0x7F800000#32 :=
    broadcastInDim_apply _ hb _ i ValueIdx.ix0 (fun a => a.elim0)
  apply real_of_abs_lt_inf
  have e' : Ideal.cmp .olt (max (x i) (-(x i)))
      (broadcastInDim s ![] hb (constant (F := Ideal) S_ .f32 0x7F800000#32) i) = 1#1 := e
  rw [eb] at e'
  exact e'

/-- UNDER THE PRECONDITION the three float arrays hold real numbers. -/
theorem reals_of_pre [Facts] (x0 : FVec Ideal S3200000x3 .f32) (x1 x2 : FVec Ideal S3200000 .f32)
    (x3 : IVec S2x3200000 32) (x4 : IVec S100000 32)
    (h : fn (F := Ideal) x0 x1 x2 x3 x4 = fun _ => 1#1) :
    (∀ i, ∃ r : ℝ, x0 i = r) ∧ (∀ i, ∃ r : ℝ, x1 i = r) ∧ (∀ i, ∃ r : ℝ, x2 i = r) := by
  have h0 := congrFun h ValueIdx.ix0
  dsimp only [fn] at h0
  obtain ⟨h01, h2⟩ := IntOp.andi_eq_one.1 h0
  obtain ⟨h0', h1⟩ := IntOp.andi_eq_one.1 h01
  exact ⟨real_of_all x0 _ _ _ h0', real_of_all x1 _ _ _ h1, real_of_all x2 _ _ _ h2⟩

end Cert.FiniteInputs

end
-- ==== Proof.LibScatterRows.lean ====
/-
  Scatters read at an index.

  A scatter walks the update indices in row-major order; each update lands on one element of the operand (or on
  none, when its start index falls outside) and is combined there with what the element holds. When the
  combination is the addition of a commutative monoid the order of the walk does not matter: every element ends
  at its initial value plus the sum of the updates that land on it.
-/
import Idealize.ShloMosaic.PureOps.Ideal
import Idealize.ShloMosaic.Lib.ValueIdx

noncomputable section

namespace Idealize.ShloMosaic.ScatterRows

open Idealize.ShloMosaic Idealize.ShloMosaic.ValueIdx

variable {α : Type} [AddCommMonoid α]

/-- One step of the walk, started from any contents `r`: after the updates of the list `l`, element `i` holds
    `r i` plus the sum, over the list, of the updates landing on `i`. -/
theorem foldl_scatter_apply {s si u : Shape} {w : Nat} (d : ScatterDims s si u) (idx : IVec si w) (upd : u.Idx → α)
    (l : List (Fin u.numel)) (r : s.Idx → α) (i : s.Idx) :
    (l.foldl (fun r n =>
        match d.resultIdx? (u.rowMajor.symm n) idx with
        | some i0 => fun i' => if i' = i0 then r i0 + upd (u.rowMajor.symm n) else r i'
        | none => r) r) i
      = r i + (l.map fun n => if d.resultIdx? (u.rowMajor.symm n) idx = some i then upd (u.rowMajor.symm n) else 0).sum := by
  induction l generalizing r with
  | nil => simp
  | cons n l ih =>
    rw [List.foldl_cons, ih, List.map_cons, List.sum_cons]
    cases h : d.resultIdx? (u.rowMajor.symm n) idx with
    | none => simp
    | some i0 =>
      by_cases hi : i = i0
      · subst hi
        simp [add_assoc]
      · have hne : ¬ (some i0 = some i) := fun h' => hi (Option.some.inj h').symm
        simp [hi, hne]

/-- A scatter whose combination is the addition of a commutative monoid, read at `i`: the operand's element plus
    the sum of the updates that land on it. -/
theorem scatter_add_apply {s si u : Shape} {w : Nat} (d : ScatterDims s si u) (f : α → α → α) (hf : ∀ a b, f a b = a + b)
    (x : s.Idx → α) (idx : IVec si w) (upd : u.Idx → α) (i : s.Idx) :
    Host.scatter d f x idx upd i = x i + ∑ j : u.Idx, if d.resultIdx? j idx = some i then upd j else 0 := by
  obtain rfl : f = (· + ·) := funext fun a => funext fun b => hf a b
  refine (foldl_scatter_apply d idx upd (List.finRange u.numel) x i).trans ?_
  rw [← Fin.sum_univ_def]
  congr 1
  exact Equiv.sum_comp u.rowMajor.symm (fun j => if d.resultIdx? j idx = some i then upd j else 0)

/-! ## Counting: scalar updates scattered into a flat array

`x.at[idx].add(v)` for a flat array `x : [N]`, indices `idx : [E]` (as `[E, 1]`) and updates `v : [E]`: update `e`
lands on element `idx e`, read as a signed integer, when that is inside `[0, N)`, and is dropped otherwise. -/

section Count

/-- Those dimension numbers. -/
abbrev countDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

theorem countDims_start (j : (⟨1, ![E]⟩ : Shape).Idx) (idx : IVec ⟨2, ![E, 1]⟩ w) (a : Fin 1) :
    (countDims N E wf).start j idx a = (idx (ix2 (j 0) 0)).toInt := by
  obtain rfl : a = 0 := Subsingleton.elim _ _
  unfold ScatterDims.start
  rw [dif_pos (show (0 : Fin 1) ∈ (countDims N E wf).scatterDimsToOperandDims from List.mem_singleton.mpr rfl)]
  have hsi : (countDims N E wf).siIdx j ⟨List.idxOf (0 : Fin 1) (countDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem countDims_window (j : (⟨1, ![E]⟩ : Shape).Idx) (a : Fin 1) : (countDims N E wf).window j a = 0 := by
  obtain rfl : a = 0 := Subsingleton.elim _ _
  unfold ScatterDims.window
  rw [dif_neg (fun h => by
    have h' := (List.mem_filter.1 h).2
    simp at h')]

/-- Update `e` lands on element `p` exactly when its index, read signed, is `p`. -/
theorem countDims_resultIdx?_eq_some (j : (⟨1, ![E]⟩ : Shape).Idx) (idx : IVec ⟨2, ![E, 1]⟩ w) (p : Fin N) :
    (countDims N E wf).resultIdx? j idx = some (ix1 p) ↔ (idx (ix2 (j 0) 0)).toInt = (p.val : ℤ) := by
  unfold ScatterDims.resultIdx?
  constructor
  · intro h
    split at h
    · next hc =>
      have hv : ((countDims N E wf).start j idx 0 + (countDims N E wf).window j 0).toNat = p.val :=
        congrArg Fin.val (congrFun (Option.some.inj h) 0)
      have h0 := (hc 0).1
      rw [countDims_start, countDims_window] at hv h0
      omega
    · exact absurd h (by simp)
  · intro h
    have hc : ∀ a, 0 ≤ (countDims N E wf).start j idx a + (countDims N E wf).window j a ∧
        (countDims N E wf).start j idx a + (countDims N E wf).window j a < (⟨1, ![N]⟩ : Shape).size a := by
      intro a
      obtain rfl : a = 0 := Subsingleton.elim _ _
      rw [countDims_start, countDims_window, h]
      have := p.isLt
      constructor
      · omega
      · show (p.val : ℤ) + 0 < (N : ℤ)
        omega
    rw [dif_pos hc]
    congr 1
    funext a
    obtain rfl : a = 0 := Subsingleton.elim _ _
    refine Fin.ext ?_
    show ((countDims N E wf).start j idx 0 + (countDims N E wf).window j 0).toNat = p.val
    rw [countDims_start, countDims_window, h]
    omega

end Count

/-- The flat index set as its one coordinate. -/
def idxEquiv1 {n : Nat} : (⟨1, ![n]⟩ : Shape).Idx ≃ Fin n where
  toFun j := j 0
  invFun e := ix1 e
  left_inv j := (eq_ix1 j).symm
  right_inv _ := rfl

theorem sum_idx1 {M : Type} [AddCommMonoid M] {n : Nat} (f : (⟨1, ![n]⟩ : Shape).Idx → M) :
    ∑ j, f j = ∑ e : Fin n, f (ix1 e) :=
  (Equiv.sum_comp (idxEquiv1 (n := n)).symm f).symm

/-- THE COUNT READ AT `p`: the operand's element plus the sum of the updates whose index, read signed, is `p`. -/
theorem count_scatter_apply {N E w : Nat} (wf : ScatterDims.WF ⟨1, ![N]⟩ ⟨2, ![E, 1]⟩ ⟨1, ![E]⟩ [] [0] [0] 1)
    (f : α → α → α) (hf : ∀ a b, f a b = a + b) (x : (⟨1, ![N]⟩ : Shape).Idx → α) (idx : IVec ⟨2, ![E, 1]⟩ w)
    (upd : (⟨1, ![E]⟩ : Shape).Idx → α) (p : Fin N) :
    Host.scatter (countDims N E wf) f x idx upd (ix1 p)
      = x (ix1 p) + ∑ e : Fin E, if (idx (ix2 e 0)).toInt = (p.val : ℤ) then upd (ix1 e) else 0 := by
  rw [scatter_add_apply _ f hf, sum_idx1]
  congr 1
  refine Finset.sum_congr rfl fun e _ => ?_
  simp only [countDims_resultIdx?_eq_some]
  rfl

/-! ## Rows: row updates scattered into a matrix

`x.at[idx].add(v)` for a matrix `x : [N, C]`, indices `idx : [E]` (as `[E, 1]`) and updates `v : [E, C]`: row `e`
of the updates lands on row `idx e`, read as a signed integer, when that is inside `[0, N)`, and is dropped
otherwise; columns go to columns. -/

section Rows

/-- Those dimension numbers. -/
abbrev rowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem rowsDims_start0 (j : (⟨2, ![E, C]⟩ : Shape).Idx) (idx : IVec ⟨2, ![E, 1]⟩ w) :
    (rowsDims N E C wf).start j idx 0 = (idx (ix2 (j 0) 0)).toInt := by
  unfold ScatterDims.start
  rw [dif_pos (show (0 : Fin 2) ∈ (rowsDims N E C wf).scatterDimsToOperandDims from List.mem_singleton.mpr rfl)]
  have hsi : (rowsDims N E C wf).siIdx j ⟨List.idxOf (0 : Fin 2) (rowsDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem rowsDims_start1 (j : (⟨2, ![E, C]⟩ : Shape).Idx) (idx : IVec ⟨2, ![E, 1]⟩ w) :
    (rowsDims N E C wf).start j idx 1 = 0 := by
  unfold ScatterDims.start
  rw [dif_neg (fun h => by simp at h)]

theorem rowsDims_window0 (j : (⟨2, ![E, C]⟩ : Shape).Idx) : (rowsDims N E C wf).window j 0 = 0 := by
  unfold ScatterDims.window
  rw [dif_neg (fun h => by
    have h' := (List.mem_filter.1 h).2
    simp at h')]

theorem rowsDims_window1 (j : (⟨2, ![E, C]⟩ : Shape).Idx) : (rowsDims N E C wf).window j 1 = (j 1).val := by
  unfold ScatterDims.window
  rw [dif_pos (show (1 : Fin 2) ∈ (rowsDims N E C wf).sKept from
    List.mem_filter.2 ⟨List.mem_finRange _, by simp⟩)]
  rfl

/-- Entry `(e, c)` of the updates lands on entry `(p, q)` exactly when row `e`'s index, read signed, is `p` and
    `c = q`. -/
theorem rowsDims_resultIdx?_eq_some (j : (⟨2, ![E, C]⟩ : Shape).Idx) (idx : IVec ⟨2, ![E, 1]⟩ w) (p : Fin N) (q : Fin C) :
    (rowsDims N E C wf).resultIdx? j idx = some (ix2 p q)
      ↔ (idx (ix2 (j 0) 0)).toInt = (p.val : ℤ) ∧ (j 1).val = q.val := by
  unfold ScatterDims.resultIdx?
  constructor
  · intro h
    split at h
    · next hc =>
      have hv0 : ((rowsDims N E C wf).start j idx 0 + (rowsDims N E C wf).window j 0).toNat = p.val :=
        congrArg Fin.val (congrFun (Option.some.inj h) 0)
      have hv1 : ((rowsDims N E C wf).start j idx 1 + (rowsDims N E C wf).window j 1).toNat = q.val :=
        congrArg Fin.val (congrFun (Option.some.inj h) 1)
      have h0 := (hc 0).1
      rw [rowsDims_start0, rowsDims_window0] at hv0 h0
      rw [rowsDims_start1, rowsDims_window1] at hv1
      constructor <;> omega
    · exact absurd h (by simp)
  · rintro ⟨h, hq⟩
    have hc : ∀ a, 0 ≤ (rowsDims N E C wf).start j idx a + (rowsDims N E C wf).window j a ∧
        (rowsDims N E C wf).start j idx a + (rowsDims N E C wf).window j a < (⟨2, ![N, C]⟩ : Shape).size a := by
      intro a
      match a with
      | ⟨0, _⟩ =>
        show 0 ≤ (rowsDims N E C wf).start j idx 0 + (rowsDims N E C wf).window j 0 ∧
          (rowsDims N E C wf).start j idx 0 + (rowsDims N E C wf).window j 0 < (N : ℤ)
        rw [rowsDims_start0, rowsDims_window0, h]
        have := p.isLt
        constructor <;> omega
      | ⟨1, _⟩ =>
        show 0 ≤ (rowsDims N E C wf).start j idx 1 + (rowsDims N E C wf).window j 1 ∧
          (rowsDims N E C wf).start j idx 1 + (rowsDims N E C wf).window j 1 < (C : ℤ)
        rw [rowsDims_start1, rowsDims_window1, hq]
        have := q.isLt
        constructor <;> omega
    rw [dif_pos hc]
    congr 1
    funext a
    refine Fin.ext ?_
    match a with
    | ⟨0, _⟩ =>
      show ((rowsDims N E C wf).start j idx 0 + (rowsDims N E C wf).window j 0).toNat = p.val
      rw [rowsDims_start0, rowsDims_window0, h]
      omega
    | ⟨1, _⟩ =>
      show ((rowsDims N E C wf).start j idx 1 + (rowsDims N E C wf).window j 1).toNat = q.val
      rw [rowsDims_start1, rowsDims_window1, hq]
      omega

/-- THE ACCUMULATED ROWS READ AT `(p, q)`, on the extended reals: the operand's entry plus the sum, over the rows
    `e` of the updates whose index is `p`, of the update's entry `(e, q)`. -/
theorem rows_scatterAdd_apply (x : (⟨2, ![N, C]⟩ : Shape).Idx → EReal) (idx : IVec ⟨2, ![E, 1]⟩ w)
    (upd : (⟨2, ![E, C]⟩ : Shape).Idx → EReal) (p : Fin N) (q : Fin C) :
    Ideal.hostScatterAdd (rowsDims N E C wf) x idx upd (ix2 p q)
      = x (ix2 p q) + ∑ e : Fin E, if (idx (ix2 e 0)).toInt = (p.val : ℤ) then upd (ix2 e q) else 0 := by
  unfold Ideal.hostScatterAdd
  congr 1
  rw [Finset.sum_filter, sum_idx2]
  refine Finset.sum_congr rfl fun e _ => ?_
  simp only [rowsDims_resultIdx?_eq_some]
  by_cases he : (idx (ix2 e 0)).toInt = (p.val : ℤ)
  · have : ∀ c : Fin C, ((idx (ix2 ((ix2 e c : (⟨2, ![E, C]⟩ : Shape).Idx) 0) 0)).toInt = (p.val : ℤ)
        ∧ ((ix2 e c : (⟨2, ![E, C]⟩ : Shape).Idx) 1).val = q.val) ↔ c = q := fun c =>
      ⟨fun h => Fin.ext h.2, fun h => ⟨he, congrArg Fin.val h⟩⟩
    simp only [this, Finset.sum_ite_eq', Finset.mem_univ, if_true, he]
  · have : ∀ c : Fin C, ¬ ((idx (ix2 ((ix2 e c : (⟨2, ![E, C]⟩ : Shape).Idx) 0) 0)).toInt = (p.val : ℤ)
        ∧ ((ix2 e c : (⟨2, ![E, C]⟩ : Shape).Idx) 1).val = q.val) := fun c h => he h.1
    simp only [this, if_false, Finset.sum_const_zero, he]

end Rows

end Idealize.ShloMosaic.ScatterRows

end
-- ==== Proof.LibScatterCols.lean ====
/-
  A scatter of columns, read at an index.

  `x.at[:, idx].add(v)` for a matrix `x : [C, N]`, indices `idx : [E]` (as `[E, 1]`) and updates `v : [C, E]`:
  column `e` of the updates lands on column `idx e` of the operand, read as a signed integer, when that is inside
  `[0, N)`, and is dropped otherwise; rows go to rows. This is the transposed layout of the row scatter
  (`[E, C]` rows into `[N, C]`): a per-row `segment_sum` mapped over the `C` rows of a `[C, E]` array.
  On the extended reals every entry ends at its initial value plus the sum of the updates landing on it.
-/
import Idealize.ShloMosaic.PureOps.Ideal
import Idealize.ShloMosaic.Lib.ValueIdx

noncomputable section

namespace Idealize.ShloMosaic.ScatterCols

open Idealize.ShloMosaic Idealize.ShloMosaic.ValueIdx

/-- The dimension numbers of the column scatter: the updates' axis 0 is the window (it goes to the operand's axis 0),
    the operand's axis 1 is the one the indices address. -/
abbrev colsDims (N E C : Nat) (wf : ScatterDims.WF ⟨2, ![C, N]⟩ ⟨2, ![E, 1]⟩ ⟨2, ![C, E]⟩ [0] [1] [1] 1) :
    ScatterDims ⟨2, ![C, N]⟩ ⟨2, ![E, 1]⟩ ⟨2, ![C, E]⟩ where
  updateWindowDims := [0]
  insertedWindowDims := [1]
  scatterDimsToOperandDims := [1]
  indexVectorDim := 1
  wf := wf

variable {N E C w : Nat} (wf : ScatterDims.WF ⟨2, ![C, N]⟩ ⟨2, ![E, 1]⟩ ⟨2, ![C, E]⟩ [0] [1] [1] 1)

/-- On the addressed axis the window starts at the index of the update's column, read signed. -/
theorem colsDims_start1 (j : (⟨2, ![C, E]⟩ : Shape).Idx) (idx : IVec ⟨2, ![E, 1]⟩ w) :
    (colsDims N E C wf).start j idx 1 = (idx (ix2 (j 1) 0)).toInt := by
  unfold ScatterDims.start
  rw [dif_pos (show (1 : Fin 2) ∈ (colsDims N E C wf).scatterDimsToOperandDims from List.mem_singleton.mpr rfl)]
  have hsi : (colsDims N E C wf).siIdx j ⟨List.idxOf (1 : Fin 2) (colsDims N E C wf).scatterDimsToOperandDims,
      List.idxOf_lt_length_iff.2 (List.mem_singleton.mpr rfl)⟩ = ix2 (j 1) 0 := by
    funext b; refine Fin.ext ?_
    match b with
    | ⟨0, _⟩ => rfl
    | ⟨1, _⟩ => rfl
  rw [hsi]
  rfl

/-- On the row axis the window starts at zero. -/
theorem colsDims_start0 (j : (⟨2, ![C, E]⟩ : Shape).Idx) (idx : IVec ⟨2, ![E, 1]⟩ w) :
    (colsDims N E C wf).start j idx 0 = 0 := by
  unfold ScatterDims.start
  rw [dif_neg (fun h => by simp at h)]

/-- The window coordinate on the row axis is the update's row. -/
theorem colsDims_window0 (j : (⟨2, ![C, E]⟩ : Shape).Idx) : (colsDims N E C wf).window j 0 = (j 0).val := by
  unfold ScatterDims.window
  rw [dif_pos (show (0 : Fin 2) ∈ (colsDims N E C wf).sKept from
    List.mem_filter.2 ⟨List.mem_finRange _, by simp⟩)]
  rfl

/-- The addressed axis is inserted: no window coordinate there. -/
theorem colsDims_window1 (j : (⟨2, ![C, E]⟩ : Shape).Idx) : (colsDims N E C wf).window j 1 = 0 := by
  unfold ScatterDims.window
  rw [dif_neg (fun h => by
    have h' := (List.mem_filter.1 h).2
    simp at h')]

/-- Entry `(c, e)` of the updates lands on entry `(q, p)` exactly when `c = q` and column `e`'s index, read signed,
    is `p`. -/
theorem colsDims_resultIdx?_eq_some (j : (⟨2, ![C, E]⟩ : Shape).Idx) (idx : IVec ⟨2, ![E, 1]⟩ w) (q : Fin C) (p : Fin N) :
    (colsDims N E C wf).resultIdx? j idx = some (ix2 q p)
      ↔ (j 0).val = q.val ∧ (idx (ix2 (j 1) 0)).toInt = (p.val : ℤ) := by
  unfold ScatterDims.resultIdx?
  constructor
  · intro h
    split at h
    · next hc =>
      have hv0 : ((colsDims N E C wf).start j idx 0 + (colsDims N E C wf).window j 0).toNat = q.val :=
        congrArg Fin.val (congrFun (Option.some.inj h) 0)
      have hv1 : ((colsDims N E C wf).start j idx 1 + (colsDims N E C wf).window j 1).toNat = p.val :=
        congrArg Fin.val (congrFun (Option.some.inj h) 1)
      have h1 := (hc 1).1
      rw [colsDims_start0, colsDims_window0] at hv0
      rw [colsDims_start1, colsDims_window1] at hv1 h1
      constructor <;> omega
    · exact absurd h (by simp)
  · rintro ⟨hq, h⟩
    have hc : ∀ a, 0 ≤ (colsDims N E C wf).start j idx a + (colsDims N E C wf).window j a ∧
        (colsDims N E C wf).start j idx a + (colsDims N E C wf).window j a < (⟨2, ![C, N]⟩ : Shape).size a := by
      intro a
      match a with
      | ⟨0, _⟩ =>
        show 0 ≤ (colsDims N E C wf).start j idx 0 + (colsDims N E C wf).window j 0 ∧
          (colsDims N E C wf).start j idx 0 + (colsDims N E C wf).window j 0 < (C : ℤ)
        rw [colsDims_start0, colsDims_window0, hq]
        have := q.isLt
        constructor <;> omega
      | ⟨1, _⟩ =>
        show 0 ≤ (colsDims N E C wf).start j idx 1 + (colsDims N E C wf).window j 1 ∧
          (colsDims N E C wf).start j idx 1 + (colsDims N E C wf).window j 1 < (N : ℤ)
        rw [colsDims_start1, colsDims_window1, h]
        have := p.isLt
        constructor <;> omega
    rw [dif_pos hc]
    congr 1
    funext a
    refine Fin.ext ?_
    match a with
    | ⟨0, _⟩ =>
      show ((colsDims N E C wf).start j idx 0 + (colsDims N E C wf).window j 0).toNat = q.val
      rw [colsDims_start0, colsDims_window0, hq]
      omega
    | ⟨1, _⟩ =>
      show ((colsDims N E C wf).start j idx 1 + (colsDims N E C wf).window j 1).toNat = p.val
      rw [colsDims_start1, colsDims_window1, h]
      omega

/-- THE ACCUMULATED COLUMNS READ AT `(q, p)`, on the extended reals: the operand's entry plus the sum, over the
    columns `e` of the updates whose index is `p`, of the update's entry `(q, e)`. -/
theorem cols_scatterAdd_apply (x : (⟨2, ![C, N]⟩ : Shape).Idx → EReal) (idx : IVec ⟨2, ![E, 1]⟩ w)
    (upd : (⟨2, ![C, E]⟩ : Shape).Idx → EReal) (q : Fin C) (p : Fin N) :
    Ideal.hostScatterAdd (colsDims N E C wf) x idx upd (ix2 q p)
      = x (ix2 q p) + ∑ e : Fin E, if (idx (ix2 e 0)).toInt = (p.val : ℤ) then upd (ix2 q e) else 0 := by
  unfold Ideal.hostScatterAdd
  congr 1
  rw [Finset.sum_filter, sum_idx2, Finset.sum_comm]
  refine Finset.sum_congr rfl fun e _ => ?_
  simp only [colsDims_resultIdx?_eq_some]
  by_cases he : (idx (ix2 e 0)).toInt = (p.val : ℤ)
  · have : ∀ c : Fin C, (((ix2 c e : (⟨2, ![C, E]⟩ : Shape).Idx) 0).val = q.val
        ∧ (idx (ix2 ((ix2 c e : (⟨2, ![C, E]⟩ : Shape).Idx) 1) 0)).toInt = (p.val : ℤ)) ↔ c = q := fun c =>
      ⟨fun h => Fin.ext h.1, fun h => ⟨congrArg Fin.val h, he⟩⟩
    simp only [this, Finset.sum_ite_eq', Finset.mem_univ, if_true, he]
  · have : ∀ c : Fin C, ¬ (((ix2 c e : (⟨2, ![C, E]⟩ : Shape).Idx) 0).val = q.val
        ∧ (idx (ix2 ((ix2 c e : (⟨2, ![C, E]⟩ : Shape).Idx) 1) 0)).toInt = (p.val : ℤ)) := fun c h => he h.2
    simp only [this, if_false, Finset.sum_const_zero, he]

end Idealize.ShloMosaic.ScatterCols

end
-- ==== Proof.LibScatterHost.lean ====
/-
  The host's accumulating scatter, read at an index, for the two layouts of a segment sum.

  `Host.scatterAdd` read at the extended reals is the exact sum (`Ideal.hostScatterAdd`); these two lemmas state the
  row form (`[E, C]` rows into `[N, C]`) and the column form (`[C, E]` columns into `[C, N]`) directly of the host
  operation, for any extents: the two layouts of one segment sum, read at transposed entries, are the same sum.
-/
import proofs.«179678_j8821862826155_2_alg».proof.Proof.LibScatterRows
import proofs.«179678_j8821862826155_2_alg».proof.Proof.LibScatterCols

noncomputable section

namespace Idealize.ShloMosaic.ScatterHost

open Idealize.ShloMosaic Idealize.ShloMosaic.ValueIdx

variable {N E C w : Nat}

/-- The host's row scatter at `(p, q)`: the operand's entry plus the sum, over the rows `e` of the updates whose index
    is `p`, of the update's entry `(e, q)`. -/
theorem rows_apply (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32) (p : Fin N) (q : Fin C) :
    Host.scatterAdd (ScatterRows.rowsDims N E C wf) x idx upd (ix2 p q)
      = x (ix2 p q) + ∑ e : Fin E, if (idx (ix2 e 0)).toInt = (p.val : ℤ) then upd (ix2 e q) else 0 :=
  ScatterRows.rows_scatterAdd_apply wf x idx upd p q

/-- The host's column scatter at `(q, p)`: the operand's entry plus the sum, over the columns `e` of the updates whose
    index is `p`, of the update's entry `(q, e)`. -/
theorem cols_apply (wf : ScatterDims.WF ⟨2, ![C, N]⟩ ⟨2, ![E, 1]⟩ ⟨2, ![C, E]⟩ [0] [1] [1] 1)
    (x : FVec Ideal ⟨2, ![C, N]⟩ .f32) (idx : IVec ⟨2, ![E, 1]⟩ w) (upd : FVec Ideal ⟨2, ![C, E]⟩ .f32) (q : Fin C) (p : Fin N) :
    Host.scatterAdd (ScatterCols.colsDims N E C wf) x idx upd (ix2 q p)
      = x (ix2 q p) + ∑ e : Fin E, if (idx (ix2 e 0)).toInt = (p.val : ℤ) then upd (ix2 q e) else 0 :=
  ScatterCols.cols_scatterAdd_apply wf x idx upd q p

end Idealize.ShloMosaic.ScatterHost

end
-- ==== Proof.Force.lean ====
/-
  The per-edge force and the result array, as functions of the argument arrays.

  For an edge `e` with displacement `d = (d₀, d₁, d₂)`, coefficients `a`, `b` and `r² = d₀² + d₁² + d₂²`, the energy
  `a·r² + b·exp(-r²)` has gradient `2·d_k·(a - b·exp(-r²))` in `d_k`, so the force, minus the gradient, is
  `d_k · (2 · (b·exp(-r²) - a))`. One program writes it in that closed form (`force`); the other writes minus the
  gradient as reverse-mode differentiation spells it, `-(d_k·c + c·d_k)` with `c = -(b·1·exp(-r²)) + a·1`
  (`gradForce`). On real numbers the two agree, by distributivity; that is the one place finiteness is used.

  The result at atom `n`, component `k`, is the sum of the forces of the edges whose first endpoint is `n` minus
  the sum over the edges whose second endpoint is `n` (`netForce`): a sum over ALL edges of the force or zero.
-/
import Idealize.ShloMosaic.PureOps.Ideal
import Idealize.ShloMosaic.PureOps.Ideal.Laws
import Idealize.ShloMosaic.Lib.ValueIdx

noncomputable section

namespace Cert.EdgeForce

open Idealize.ShloMosaic Idealize.ShloMosaic.ValueIdx

/-- The f32 word of `1.0` denotes the real one. -/
theorem word_one : Ideal.ofBits .f32 0x3F800000#32 = ((1 : ℝ) : EReal) := by
  simp [Ideal.ofBits, Ideal.ieee, -EReal.coe_mul]
  norm_num

/-- The f32 word of `2.0` denotes the real two. -/
theorem word_two : Ideal.ofBits .f32 0x40000000#32 = ((2 : ℝ) : EReal) := by
  simp [Ideal.ofBits, Ideal.ieee, -EReal.coe_mul]
  norm_num

/-- The f32 zero word denotes the real zero. -/
theorem word_zero : Ideal.ofBits .f32 0x00000000#32 = ((0 : ℝ) : EReal) := by
  rw [Ideal.ofBits_zero_f32, EReal.coe_zero]

/-- Component `dk` of the force on an edge with displacement `(d0, d1, d2)` and coefficients `a`, `b`, in closed form:
    `dk · (2 · (b · exp(0 - r²) - a))`, the constants as the f32 words the program holds. -/
def force (d0 d1 d2 a b dk : EReal) : EReal :=
  dk * (Ideal.ofBits .f32 0x40000000#32
    * (b * Ideal.exp (Ideal.ofBits .f32 0x00000000#32 - (d0 * d0 + d1 * d1 + d2 * d2)) - a))

/-- The same component as minus the reverse-mode gradient of `a·r² + b·exp(-r²)`: with `r² = 0 + (d0² + d1² + d2²)` and
    `c = -((b·1)·exp(-r²)) + a·1`, it is `-(dk·c + c·dk)`. -/
def gradForce (d0 d1 d2 a b dk : EReal) : EReal :=
  -(dk * (-((b * Ideal.ofBits .f32 0x3F800000#32)
        * Ideal.exp (-(Ideal.ofBits .f32 0x00000000#32 + (d0 * d0 + d1 * d1 + d2 * d2))))
      + a * Ideal.ofBits .f32 0x3F800000#32)
    + (-((b * Ideal.ofBits .f32 0x3F800000#32)
        * Ideal.exp (-(Ideal.ofBits .f32 0x00000000#32 + (d0 * d0 + d1 * d1 + d2 * d2))))
      + a * Ideal.ofBits .f32 0x3F800000#32) * dk)

/-- On real numbers minus the gradient is the closed form: `-(d·c + c·d) = d·(2·(-c))`. -/
theorem gradForce_eq_force (d0 d1 d2 a b dk : ℝ) :
    gradForce (d0 : EReal) d1 d2 a b dk = force (d0 : EReal) d1 d2 a b dk := by
  unfold gradForce force
  rw [word_one, word_two, word_zero]
  simp only [← EReal.coe_mul, ← EReal.coe_add, ← EReal.coe_neg, ← EReal.coe_sub, Ideal.exp_coe]
  rw [EReal.coe_eq_coe_iff]
  simp only [zero_sub, zero_add]
  ring

variable {E N : Nat}

/-- The sum, over the edges whose endpoint word read signed is `n`, of a per-edge quantity, on top of `z`. -/
def segSum (z : EReal) (idx : Fin E → BitVec 32) (f : Fin E → EReal) (n : Fin N) : EReal :=
  z + ∑ e : Fin E, if (idx e).toInt = (n.val : ℤ) then f e else 0

/-- Two per-edge quantities that agree edge by edge have the same segment sums. -/
theorem segSum_congr (z : EReal) (idx : Fin E → BitVec 32) (f g : Fin E → EReal) (h : ∀ e, f e = g e) (n : Fin N) :
    segSum z idx f n = segSum z idx g n := by
  unfold segSum
  exact congrArg (z + ·) (Finset.sum_congr rfl fun e _ => by rw [h e])

/-- A scatter's reading at `n` — an operand entry plus the sum over the edges, each contributing its update when its
    index word read signed is `n` — is the segment sum, once the operand entry, the index column and the updates are
    named. -/
theorem segSum_of (z z' : EReal) (hz : z = z') (idx : (⟨2, ![E, 1]⟩ : Shape).Idx → BitVec 32) (ends : Fin E → BitVec 32)
    (hidx : ∀ e, idx (ix2 e 0) = ends e) (g f : Fin E → EReal) (hf : ∀ e, g e = f e) (n : Fin N) :
    z + ∑ e : Fin E, (if (idx (ix2 e 0)).toInt = (n.val : ℤ) then g e else 0) = segSum z' ends f n := by
  subst hz
  unfold segSum
  exact congrArg (z + ·) (Finset.sum_congr rfl fun e _ => by rw [hidx e, hf e])

/-- Component `k` of the force on edge `e`, from the argument arrays: displacements `[E, 3]`, coefficients `[E]`. -/
def edgeForce (disp : (⟨2, ![E, 3]⟩ : Shape).Idx → EReal) (a b : (⟨1, ![E]⟩ : Shape).Idx → EReal) (k : Fin 3) (e : Fin E) : EReal :=
  force (disp (ix2 e 0)) (disp (ix2 e 1)) (disp (ix2 e 2)) (a (ix1 e)) (b (ix1 e)) (disp (ix2 e k))

/-- The same through the gradient's spelling. -/
def edgeGradForce (disp : (⟨2, ![E, 3]⟩ : Shape).Idx → EReal) (a b : (⟨1, ![E]⟩ : Shape).Idx → EReal) (k : Fin 3) (e : Fin E) : EReal :=
  gradForce (disp (ix2 e 0)) (disp (ix2 e 1)) (disp (ix2 e 2)) (a (ix1 e)) (b (ix1 e)) (disp (ix2 e k))

/-- When every entry of the three float arrays is a real number the two spellings agree on every edge. -/
theorem edgeGradForce_eq (disp : (⟨2, ![E, 3]⟩ : Shape).Idx → EReal) (a b : (⟨1, ![E]⟩ : Shape).Idx → EReal)
    (hd : ∀ i, ∃ r : ℝ, disp i = r) (ha : ∀ i, ∃ r : ℝ, a i = r) (hb : ∀ i, ∃ r : ℝ, b i = r) (k : Fin 3) (e : Fin E) :
    edgeGradForce disp a b k e = edgeForce disp a b k e := by
  unfold edgeGradForce edgeForce
  obtain ⟨r0, h0⟩ := hd (ix2 e 0)
  obtain ⟨r1, h1⟩ := hd (ix2 e 1)
  obtain ⟨r2, h2⟩ := hd (ix2 e 2)
  obtain ⟨rk, hk⟩ := hd (ix2 e k)
  obtain ⟨ra, ha'⟩ := ha (ix1 e)
  obtain ⟨rb, hb'⟩ := hb (ix1 e)
  rw [h0, h1, h2, hk, ha', hb']
  exact gradForce_eq_force r0 r1 r2 ra rb rk

/-- THE RESULT: at atom `n`, component `k`, the forces of the edges starting at `n` summed on top of the zero word,
    minus those of the edges ending at `n`. The endpoints are the two rows of the `[2, E]` index array. -/
def netForce (disp : (⟨2, ![E, 3]⟩ : Shape).Idx → EReal) (a b : (⟨1, ![E]⟩ : Shape).Idx → EReal)
    (ends : (⟨2, ![2, E]⟩ : Shape).Idx → BitVec 32) : (⟨2, ![N, 3]⟩ : Shape).Idx → EReal := fun i =>
  segSum (Ideal.ofBits .f32 0x00000000#32) (fun e => ends (ix2 0 e)) (edgeForce disp a b (i 1)) (i 0)
    - segSum (Ideal.ofBits .f32 0x00000000#32) (fun e => ends (ix2 1 e)) (edgeForce disp a b (i 1)) (i 0)

/-- The result read at atom `n`, component `k`. -/
theorem netForce_apply (disp : (⟨2, ![E, 3]⟩ : Shape).Idx → EReal) (a b : (⟨1, ![E]⟩ : Shape).Idx → EReal)
    (ends : (⟨2, ![2, E]⟩ : Shape).Idx → BitVec 32) (n : Fin N) (k : Fin 3) :
    netForce disp a b ends (ix2 n k)
      = segSum (Ideal.ofBits .f32 0x00000000#32) (fun e => ends (ix2 0 e)) (edgeForce disp a b k) n
        - segSum (Ideal.ofBits .f32 0x00000000#32) (fun e => ends (ix2 1 e)) (edgeForce disp a b k) n := rfl

end Cert.EdgeForce

end
-- ==== Proof.Reference.lean ====
/-
  The reference at an index.

  The reference squares the displacements, sums each edge's three squares on top of the zero word, forms
  `c = -((b·1)·exp(-r²)) + a·1` per edge, repeats it across the edge's three components and writes minus the
  gradient `-(d·c + c·d)`; it then scatters the `[E, 3]` rows into `[N, 3]` zeros at the first endpoints, again at the
  second endpoints, and subtracts. Read at atom `n`, component `k`, each scatter is the zero word plus the sum over the
  edges with that endpoint of the edge's entry `k` (rows go to rows, columns to columns), so with real inputs the result
  is the net force.
-/
import proofs.«179678_j8821862826155_2_alg».proof.Proof.Gen.ReferenceIdeal.Read
import proofs.«179678_j8821862826155_2_alg».proof.Proof.LibScatterHost
import proofs.«179678_j8821862826155_2_alg».proof.Proof.Force

noncomputable section

namespace Cert.ReferenceIdeal.RefValue

open Cert.ReferenceIdeal Cert.ReferenceIdeal.Gen Cert.ReferenceIdeal.Read Idealize.ShloMosaic Idealize.ShloMosaic.ValueIdx
open Cert.EdgeForce

/-- Entry `(e, k)` of minus the gradient: the repeated coefficient is read at the edge, the row sum over the edge's
    three squares. -/
theorem grad_apply (x0 : (⟨S3200000x3, .f32⟩ : BufTy).Contents (Elt Ideal)) (x1 x2 : (⟨S3200000, .f32⟩ : BufTy).Contents (Elt Ideal))
    (e : Fin 3200000) (k : Fin 3) :
    val_main_v18 (F := Ideal) x0 x1 x2 (ix2 e k) = edgeGradForce x0 x1 x2 k e := by
  have i14 : idx_main_v14 (ix2 e k) = ix1 e := funext fun a => Fin.ext (by match a with | ⟨0, _⟩ => rfl)
  have i1 : ∀ j : Fin 3, idx_main_v1 (ix1 e) j = ix2 e j := fun j => funext fun a => Fin.ext (by
    match a with | ⟨0, _⟩ => rfl | ⟨1, _⟩ => rfl)
  rw [val_main_v18_apply, val_main_v17_apply, val_main_v15_apply, val_main_v16_apply, val_main_v14_apply, i14,
    val_main_v13_apply, val_main_v11_apply, val_main_v12_apply, val_main_v10_apply, val_main_v9_apply,
    val_main_v8_apply, val_main_cst_1_apply, val_main_v4_apply, val_main_v3_apply, val_main_v1_apply,
    val_main_cst_apply]
  rw [Fin.sum_univ_three, i1 0, i1 1, i1 2, val_main_v0_apply, val_main_v0_apply, val_main_v0_apply]
  unfold edgeGradForce gradForce
  rfl

/-- The scattered-into zeros read the zero word. -/
theorem zeros21_apply (i : S100000x3.Idx) : val_main_v21 (F := Ideal) i = Ideal.ofBits .f32 0x00000000#32 := by
  rw [val_main_v21_apply, val_main_cst_2_apply]; rfl
theorem zeros26_apply (i : S100000x3.Idx) : val_main_v26 (F := Ideal) i = Ideal.ofBits .f32 0x00000000#32 := by
  rw [val_main_v26_apply, val_main_cst_3_apply]; rfl

/-- The first scatter's index column is row 0 of the endpoint array. -/
theorem ends22_apply (x3 : (⟨S2x3200000, .i32⟩ : BufTy).Contents (Elt Ideal)) (e : Fin 3200000) :
    val_main_v22 (F := Ideal) x3 (ix2 e 0) = x3 (ix2 0 e) := by
  rw [val_main_v22_apply, val_main_v20_apply, val_main_v19_apply]
  refine congrArg x3 (funext fun a => Fin.ext ?_)
  match a with
  | ⟨0, _⟩ => rfl
  | ⟨1, _⟩ => exact Nat.mod_eq_of_lt e.isLt

/-- The second scatter's index column is row 1 of the endpoint array. -/
theorem ends27_apply (x3 : (⟨S2x3200000, .i32⟩ : BufTy).Contents (Elt Ideal)) (e : Fin 3200000) :
    val_main_v27 (F := Ideal) x3 (ix2 e 0) = x3 (ix2 1 e) := by
  rw [val_main_v27_apply, val_main_v25_apply, val_main_v24_apply]
  refine congrArg x3 (funext fun a => Fin.ext ?_)
  match a with
  | ⟨0, _⟩ => rfl
  | ⟨1, _⟩ => exact Nat.mod_eq_of_lt e.isLt

/-- The printed dimension numbers are the row scatter's. -/
theorem dims_eq : scatter_S100000x3_S3200000x1_S3200000x3_1_0_0_1
    = ScatterRows.rowsDims 100000 3200000 3 Facts₀.scatter_S100000x3_S3200000x1_S3200000x3_1_0_0_1_wf := rfl

/-- THE REFERENCE'S RESULT, with real inputs, is the net force. -/
theorem result_eq (x0 : (⟨S3200000x3, .f32⟩ : BufTy).Contents (Elt Ideal)) (x1 x2 : (⟨S3200000, .f32⟩ : BufTy).Contents (Elt Ideal))
    (x3 : (⟨S2x3200000, .i32⟩ : BufTy).Contents (Elt Ideal))
    (hd : ∀ i, ∃ r : ℝ, x0 i = r) (ha : ∀ i, ∃ r : ℝ, x1 i = r) (hb : ∀ i, ∃ r : ℝ, x2 i = r) :
    val_main_v29 (F := Ideal) x0 x1 x2 x3 = netForce (N := 100000) x0 x1 x2 x3 := by
  funext i
  obtain ⟨n, k, rfl⟩ : ∃ (n : Fin 100000) (k : Fin 3), i = ix2 n k := ⟨i 0, i 1, eq_ix2 i⟩
  rw [val_main_v29_apply, netForce_apply]
  unfold val_main_v23 val_main_v28
  rw [Ideal.subf_def, dims_eq, ScatterHost.rows_apply, ScatterHost.rows_apply]
  have hupd : ∀ e : Fin 3200000, val_main_v18 (F := Ideal) x0 x1 x2 (ix2 e k) = edgeForce x0 x1 x2 k e := fun e =>
    (grad_apply x0 x1 x2 e k).trans (edgeGradForce_eq x0 x1 x2 hd ha hb k e)
  exact congrArg₂ (· - ·)
    (segSum_of _ _ (zeros21_apply _) (val_main_v22 (F := Ideal) x3) (fun e => x3 (ix2 0 e)) (ends22_apply x3)
      (fun e => val_main_v18 (F := Ideal) x0 x1 x2 (ix2 e k)) (edgeForce x0 x1 x2 k) hupd n)
    (segSum_of _ _ (zeros26_apply _) (val_main_v27 (F := Ideal) x3) (fun e => x3 (ix2 1 e)) (ends27_apply x3)
      (fun e => val_main_v18 (F := Ideal) x0 x1 x2 (ix2 e k)) (edgeForce x0 x1 x2 k) hupd n)

end Cert.ReferenceIdeal.RefValue

end
-- ==== Proof.KernelBlock.lean ====
/-
  The kernel body's block at an index.

  The body loads a `[3, T]` block of displacements (one row per component, one column per edge of the tile) and
  two `[1, T]` blocks of coefficients, takes the three rows apart, forms `r² = d₀² + d₁² + d₂²` per column, the
  coefficient `2·(b·exp(0 - r²) - a)` per column, repeats that row down the three rows and multiplies the block by
  it. Read at row `k`, column `r`, the stored block is the closed-form force of column `r`'s edge in component `k`.
-/
import proofs.«179678_j8821862826155_2_alg».proof.Proof.Gen.KernelIdeal.Skeleton
import proofs.«179678_j8821862826155_2_alg».proof.Proof.Force
import Idealize.ShloMosaic.Lib.ValueIdx
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.ValueIdx
open Cert.EdgeForce

/-- Row `o` of the block cut out as a `[1, T]` row, read at column `r`. -/
theorem row_apply (x : (⟨2, ![3, 80000]⟩ : Shape).Idx → EReal) (o : Nat) (ho : o < 3)
    (h : (⟨2, ![3, 80000]⟩ : Shape).Slices ![o, 0] ⟨2, ![1, 80000]⟩) (r : Fin 80000) :
    extractStridedSlice ⟨2, ![1, 80000]⟩ ![o, 0] x h (ix2 (0 : Fin 1) r) = x (ix2 ⟨o, ho⟩ r) :=
  slice2_axis0_apply o x h 0 r ⟨o, ho⟩ rfl

/-- THE STORED BLOCK at row `k`, column `r`: the force of that column's edge in component `k`. -/
theorem pay_apply (x0 : Vec Ideal S3x80000 .f32) (x1 x2 : Vec Ideal S1x80000 .f32) (k : Fin 3) (r : Fin 80000) :
    k0_pay1 (F := Ideal) x0 x1 x2 (ix2 k r)
      = force (x0 (ix2 0 r)) (x0 (ix2 1 r)) (x0 (ix2 2 r)) (x1 (ix2 0 r)) (x2 (ix2 0 r)) (x0 (ix2 k r)) := by
  unfold k0_pay1 force
  simp only [shapeCast_self]
  rw [mulf_apply, broadcastTo_1b_ab_apply]
  simp only [mulf_apply, subf_apply, addf_apply, broadcast_apply]
  rw [show ∀ v : FVec Ideal S1x80000 .f32, exp v (ix2 (0 : Fin 1) r) = Ideal.exp (v (ix2 (0 : Fin 1) r)) from fun _ => rfl]
  simp only [mulf_apply, subf_apply, addf_apply, broadcast_apply]
  rw [row_apply x0 0 (by omega), row_apply x0 1 (by omega), row_apply x0 2 (by omega)]
  rfl

end Cert.KernelIdeal.Block

end
-- ==== Proof.KernelArray.lean ====
/-
  The kernel's output array.

  The kernel runs over forty tiles of `80000` consecutive edges. Tile `t` is handed block `(0, t)` of the `[3, E]`
  transposed displacements and of the two `[1, E]` coefficient rows (the host lines before the kernel make those from
  the arguments), and writes block `(0, t)` of the `[3, E]` output. Column `r` of tile `t` is edge `80000·t + r`, so each
  input block read at a column is the argument array read at that edge, the stored block is the edge's force, and —
  the forty blocks tiling the array — the output array ends as the array of forces of all edges.
-/
import proofs.«179678_j8821862826155_2_alg».proof.Proof.Gen.KernelIdeal.Frame
import proofs.«179678_j8821862826155_2_alg».proof.Proof.KernelBlock
import Idealize.ShloMosaic.Lib.Pipeline.Value
import Idealize.ShloMosaic.Lib.ValueLayout
import Idealize.ShloMosaic.Lib.StableHlo.Run

noncomputable section

namespace Cert.KernelIdeal.Forces

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.EdgeForce

variable (m : (ℓ : Loc nD τ sig) → Buf (Elt Ideal) ℓ)

theorem hz : (![0, 0] : Fin 2 → Nat) = fun _ => 0 := funext fun a => by fin_cases a <;> rfl

/-! ## What the kernel finds: the host lines before it -/

/-- The kernel's first operand is the displacement array transposed to `[3, E]`. -/
theorem dispT_eq (c : Dev nD) : (V m c main_v0 : FVec Ideal S3x3200000 .f32)
    = transpose S3x3200000 [1, 0] (m ((c : Thread nD τ).loc main_arg0)) transposes_S3200000x3_S3x3200000_1_0 := by
  show StableHlo.after hostOps0 (fun b => m (c, b)) (Proc.devRef .tc main_v0) = _
  after_results

/-- Its second operand is the coefficient array `a` laid out as one row `[1, E]`. -/
theorem aRow_eq (c : Dev nD) : (V m c main_v1 : FVec Ideal S1x3200000 .f32)
    = shapeCast S1x3200000 (m ((c : Thread nD τ).loc main_arg1)) shapeCasts_S3200000_S1x3200000 := by
  show StableHlo.after hostOps0 (fun b => m (c, b)) (Proc.devRef .tc main_v1) = _
  after_results
  rfl

/-- Its third operand is the coefficient array `b` laid out as one row `[1, E]`. -/
theorem bRow_eq (c : Dev nD) : (V m c main_v2 : FVec Ideal S1x3200000 .f32)
    = shapeCast S1x3200000 (m ((c : Thread nD τ).loc main_arg2)) shapeCasts_S3200000_S1x3200000 := by
  show StableHlo.after hostOps0 (fun b => m (c, b)) (Proc.devRef .tc main_v2) = _
  after_results
  rfl

/-! ## Tiles -/

/-- The edge that column `r` of tile `t` holds: tiles are `80000` consecutive edges. -/
def edgeOf (t : Fin cfg0.N) (r : Fin 80000) : Fin 3200000 :=
  ⟨80000 * t.val + r.val, by have := t.isLt; have h : cfg0.N = 40 := N_0; have := r.isLt; omega⟩

/-- Every window's block at point `t` is block `(0, t)` of its array (decided over the forty points). -/
theorem idx_facts : ∀ t : Fin cfg0.N,
    win0_0.index t (0 : Fin 2) = 0 ∧ win0_0.index t (1 : Fin 2) = t.val ∧
    win0_1.index t (0 : Fin 2) = 0 ∧ win0_1.index t (1 : Fin 2) = t.val ∧
    win0_2.index t (0 : Fin 2) = 0 ∧ win0_2.index t (1 : Fin 2) = t.val ∧
    win0_3.index t (0 : Fin 2) = 0 ∧ win0_3.index t (1 : Fin 2) = t.val :=
  (by decide +kernel : ∀ t : Fin grid0.N, _)

/-- The displacement block of tile `t` at `(k, r)` is component `k` of the displacement of edge `edgeOf t r`. -/
theorem disp_blk (c : Dev nD) (t : Fin cfg0.N) (k : Fin 3) (r : Fin 80000) :
    (iblk m c 0 t : Vec Ideal S3x80000 .f32) (ix2 k r) = m ((c : Thread nD τ).loc main_arg0) (ix2 (edgeOf t r) k) := by
  obtain ⟨e0, e1, -⟩ := idx_facts t
  unfold iblk
  rw [View.read_apply]
  show V m c main_v0 _ = _
  rw [dispT_eq m c]
  have hemb : ((cfg0.win 0).blk t).view.emb (ix2 k r) = (ix2 k (edgeOf t r) : S3x3200000.Idx) := by
    funext a; apply Fin.ext
    match a with
    | ⟨0, _⟩ => show win0_0.index t (0 : Fin 2) * 3 + 1 * k.val = k.val; rw [e0]; omega
    | ⟨1, _⟩ => show win0_0.index t (1 : Fin 2) * 80000 + 1 * r.val = 80000 * t.val + r.val; rw [e1]; omega
  exact (congrArg (transpose S3x3200000 [1, 0] (m ((c : Thread nD τ).loc main_arg0)) transposes_S3200000x3_S3x3200000_1_0) hemb).trans
    (transpose_ix2_apply _ _ k (edgeOf t r))

/-- The `a` block of tile `t` at column `r` is `a` of edge `edgeOf t r`. -/
theorem a_blk (c : Dev nD) (t : Fin cfg0.N) (r : Fin 80000) :
    (iblk m c 1 t : Vec Ideal S1x80000 .f32) (ix2 0 r) = m ((c : Thread nD τ).loc main_arg1) (ix1 (edgeOf t r)) := by
  obtain ⟨-, -, e0, e1, -⟩ := idx_facts t
  unfold iblk
  rw [View.read_apply]
  show V m c main_v1 _ = _
  rw [aRow_eq m c]
  have hemb : ((cfg0.win 1).blk t).view.emb (ix2 0 r) = (ix2 0 (edgeOf t r) : S1x3200000.Idx) := by
    funext a; apply Fin.ext
    match a with
    | ⟨0, _⟩ => show win0_1.index t (0 : Fin 2) * 1 + 1 * (0 : Fin 1).val = (0 : Fin 1).val; rw [e0]; omega
    | ⟨1, _⟩ => show win0_1.index t (1 : Fin 2) * 80000 + 1 * r.val = 80000 * t.val + r.val; rw [e1]; omega
  exact (congrArg (shapeCast S1x3200000 (m ((c : Thread nD τ).loc main_arg1)) shapeCasts_S3200000_S1x3200000) hemb).trans
    (shapeCast_a_1a_apply _ _ 0 (edgeOf t r))

/-- The `b` block of tile `t` at column `r` is `b` of edge `edgeOf t r`. -/
theorem b_blk (c : Dev nD) (t : Fin cfg0.N) (r : Fin 80000) :
    (iblk m c 2 t : Vec Ideal S1x80000 .f32) (ix2 0 r) = m ((c : Thread nD τ).loc main_arg2) (ix1 (edgeOf t r)) := by
  obtain ⟨-, -, -, -, e0, e1, -⟩ := idx_facts t
  unfold iblk
  rw [View.read_apply]
  show V m c main_v2 _ = _
  rw [bRow_eq m c]
  have hemb : ((cfg0.win 2).blk t).view.emb (ix2 0 r) = (ix2 0 (edgeOf t r) : S1x3200000.Idx) := by
    funext a; apply Fin.ext
    match a with
    | ⟨0, _⟩ => show win0_2.index t (0 : Fin 2) * 1 + 1 * (0 : Fin 1).val = (0 : Fin 1).val; rw [e0]; omega
    | ⟨1, _⟩ => show win0_2.index t (1 : Fin 2) * 80000 + 1 * r.val = 80000 * t.val + r.val; rw [e1]; omega
  exact (congrArg (shapeCast S1x3200000 (m ((c : Thread nD τ).loc main_arg2)) shapeCasts_S3200000_S1x3200000) hemb).trans
    (shapeCast_a_1a_apply _ _ 0 (edgeOf t r))

/-! ## The kernel's output array -/

/-- THE ARRAY OF FORCES, `[3, E]`: entry `(k, e)` is component `k` of the force on edge `e`. -/
def forces (c : Dev nD) : FVec Ideal S3x3200000 .f32 := fun i =>
  edgeForce (m ((c : Thread nD τ).loc main_arg0) : FVec Ideal S3200000x3 .f32)
    (m ((c : Thread nD τ).loc main_arg1) : FVec Ideal S3200000 .f32)
    (m ((c : Thread nD τ).loc main_arg2) : FVec Ideal S3200000 .f32) (i 0) (i 1)

/-- WHAT TILE `t` WRITES BACK is its block of the array of forces: each column of the stored block is the force of
    the edge the tile's column holds, the three input blocks being the argument arrays read at that edge. -/
theorem flushed_eq (c : Dev nD) (t : Fin cfg0.N) :
    (dats m 0 c).flushed 3 t = ((cfg0.win 3).blk t).view.read (Elt Ideal) (forces m c) := by
  obtain ⟨-, -, -, -, -, -, e0, e1⟩ := idx_facts t
  show (cfg0.win 3).cut (grid0.coords t) ((dats m 0 c).after 3 t) = _
  rw [after0_3]
  unfold out0_3
  rw [View.canon_unit_zero hz]
  simp only [View.ld_unit_zero (S := S3x80000) hz, View.ld_unit_zero (S := S1x80000) hz]
  funext j
  show k0_pay1 (iblk m c 0 t) (iblk m c 1 t) (iblk m c 2 t) j = forces m c (((cfg0.win 3).blk t).view.emb j)
  obtain ⟨k, r, rfl⟩ : ∃ (k : Fin 3) (r : Fin 80000), j = ix2 k r := ⟨j 0, j 1, eq_ix2 j⟩
  have hemb : ((cfg0.win 3).blk t).view.emb (ix2 k r) = (ix2 k (edgeOf t r) : S3x3200000.Idx) := by
    funext a; apply Fin.ext
    match a with
    | ⟨0, _⟩ => show win0_3.index t (0 : Fin 2) * 3 + 1 * k.val = k.val; rw [e0]; omega
    | ⟨1, _⟩ => show win0_3.index t (1 : Fin 2) * 80000 + 1 * r.val = 80000 * t.val + r.val; rw [e1]; omega
  refine (Block.pay_apply (iblk m c 0 t) (iblk m c 1 t) (iblk m c 2 t) k r).trans ?_
  rw [hemb, disp_blk m c t 0 r, disp_blk m c t 1 r, disp_blk m c t 2 r, disp_blk m c t k r, a_blk m c t r, b_blk m c t r]
  rfl

/-- An index of the array is in tile `t`'s block iff each coordinate is in the block's range on its axis. -/
theorem mem_blk (t : Fin cfg0.N) (i : S3x3200000.Idx) :
    i ∈ ((cfg0.win 3).blk t).view.set ↔ ∀ a : Fin 2, win0_3.index t a * S3x80000.size a ≤ (i a).val
      ∧ (i a).val < win0_3.index t a * S3x80000.size a + S3x80000.size a := by
  show i ∈ ((View.whole main_v3).slice (win0_3.rect t)).set ↔ _
  rw [View.set_slice_whole, Rect.mem_set_unit]
  exact Iff.rfl

/-- The forty tiles cover the array: edge `e` is in tile `e / 80000`. -/
theorem cover (i : S3x3200000.Idx) :
    ∃ t : Fin cfg0.N, (cfg0.win 3).flush t = true ∧ i ∈ ((cfg0.win 3).blk t).view.set := by
  have hi0 : (i 0).val < 3 := (i 0).isLt
  have hi1 : (i 1).val < 3200000 := (i 1).isLt
  have hN : cfg0.N = 40 := N_0
  obtain ⟨t, ht⟩ : ∃ t : Fin cfg0.N, t.val = (i 1).val / 80000 := ⟨⟨(i 1).val / 80000, by omega⟩, rfl⟩
  obtain ⟨-, -, -, -, -, -, e0, e1⟩ := idx_facts t
  refine ⟨t, flush0_3 t, ?_⟩
  rw [mem_blk]
  intro a
  match a with
  | ⟨0, _⟩ =>
    show win0_3.index t (0 : Fin 2) * 3 ≤ (i 0).val ∧ (i 0).val < win0_3.index t (0 : Fin 2) * 3 + 3
    rw [e0]; omega
  | ⟨1, _⟩ =>
    show win0_3.index t (1 : Fin 2) * 80000 ≤ (i 1).val ∧ (i 1).val < win0_3.index t (1 : Fin 2) * 80000 + 80000
    rw [e1, ht]; omega

/-- THE KERNEL'S OUTPUT ARRAY after the run is the array of forces. -/
theorem final (c : Dev nD) : (dats m 0 c).arrAt 3 cfg0.N = forces m c :=
  (dats m 0 c).arrAt_eq_of_cover 3 (forces m c) (fun t _ => flushed_eq m c t) (cover)

end Cert.KernelIdeal.Forces

end
-- ==== Proof.KernelTailRead.lean ====
/-
  The host lines after the kernel, read at an index.

  After the kernel has left the `[3, E]` array of forces, the program takes the two rows of the endpoint array as
  index columns, scatters the `[3, E]` columns into `[3, N]` zeros at the first endpoints and again at the second
  endpoints (a segment sum per row), subtracts, and transposes to `[N, 3]`. Read at atom `n`, component `k`, that is
  the segment sum of row `k` over the edges starting at `n` minus the one over the edges ending at `n`.
-/
import proofs.«179678_j8821862826155_2_alg».proof.Proof.Gen.KernelIdeal
import proofs.«179678_j8821862826155_2_alg».proof.Proof.LibScatterHost
import proofs.«179678_j8821862826155_2_alg».proof.Proof.Force
import Idealize.ShloMosaic.Lib.ValueLayout
import Idealize.ShloMosaic.Lib.Pipeline.Value

noncomputable section

namespace Cert.KernelIdeal.Tail

open Cert.KernelIdeal Cert.KernelIdeal.Gen Idealize.ShloMosaic Idealize.ShloMosaic.ValueIdx
open Cert.EdgeForce

/-- The scatters' operand: the zero word as `[N]` zeros, repeated down the three rows. -/
def zeros : FVec Ideal S3x100000 .f32 :=
  broadcastInDim S3x100000 ![1] bcast_S100000_S3x100000_1
    (broadcastInDim S100000 ![] bcast_S_S100000 (constant (F := Ideal) S_ .f32 0x00000000#32))

theorem zeros_apply (i : S3x100000.Idx) : zeros i = Ideal.ofBits .f32 0x00000000#32 := by
  rw [zeros, broadcastInDim_apply _ bcast_S100000_S3x100000_1 _ i (ix1 (i 1)) (fun a => match a with
      | ⟨0, _⟩ => by show (i 1).val = if (100000 : Nat) = 1 then 0 else (i 1).val; rw [if_neg (by decide)]),
    broadcastInDim_apply _ bcast_S_S100000 _ _ ix0 (fun a => a.elim0)]
  rfl

/-- Row `o` of the endpoint array as an `[E, 1]` index column: cut out, flattened, stood up. -/
def col (x3 : IVec S2x3200000 32) (o : Nat) (h : S2x3200000.Slices ![o, 0] S1x3200000) : IVec S3200000x1 32 :=
  broadcastInDim S3200000x1 ![0] bcast_S3200000_S3200000x1_0
    (shapeCast S3200000 (extractStridedSlice S1x3200000 ![o, 0] x3 h) shapeCasts_S1x3200000_S3200000)

/-- Its entry `e` is the endpoint array's entry `(o, e)`. -/
theorem col_apply (x3 : IVec S2x3200000 32) (o : Nat) (ho : o < 2) (h : S2x3200000.Slices ![o, 0] S1x3200000)
    (e : Fin 3200000) : col x3 o h (ix2 e 0) = x3 (ix2 ⟨o, ho⟩ e) := by
  rw [col, broadcastInDim_apply _ bcast_S3200000_S3200000x1_0 _ (ix2 e 0) (ix1 e) (fun a => match a with
      | ⟨0, _⟩ => by show e.val = if (3200000 : Nat) = 1 then 0 else e.val; rw [if_neg (by decide)]),
    shapeCast_1a_a_apply, slice2_axis0_apply o x3 h 0 e ⟨o, ho⟩ rfl]

/-- The lines after the kernel as one function of the kernel's output array `A` and the endpoint array. -/
def tail (A : FVec Ideal S3x3200000 .f32) (x3 : IVec S2x3200000 32) : FVec Ideal S100000x3 .f32 :=
  transpose S100000x3 [1, 0]
    (subf
      (Host.scatterAdd scatter_S3x100000_S3200000x1_S3x3200000_0_1_1_1 zeros (col x3 0 slices_S2x3200000_S1x3200000_0_0) A)
      (Host.scatterAdd scatter_S3x100000_S3200000x1_S3x3200000_0_1_1_1 zeros (col x3 1 slices_S2x3200000_S1x3200000_1_0) A))
    transposes_S3x100000_S100000x3_1_0

/-- The printed dimension numbers are the column scatter's. -/
theorem dims_eq : scatter_S3x100000_S3200000x1_S3x3200000_0_1_1_1
    = ScatterCols.colsDims 100000 3200000 3 Facts₀.scatter_S3x100000_S3200000x1_S3x3200000_0_1_1_1_wf := rfl

/-- THE TAIL READ at atom `n`, component `k`: row `k` of `A` summed over the edges starting at `n`, minus over those
    ending at `n`. -/
theorem tail_apply (A : FVec Ideal S3x3200000 .f32) (x3 : IVec S2x3200000 32) (n : Fin 100000) (k : Fin 3) :
    tail A x3 (ix2 n k)
      = segSum (Ideal.ofBits .f32 0x00000000#32) (fun e => x3 (ix2 0 e)) (fun e => A (ix2 k e)) n
        - segSum (Ideal.ofBits .f32 0x00000000#32) (fun e => x3 (ix2 1 e)) (fun e => A (ix2 k e)) n := by
  rw [tail, transpose_ix2_apply, subf_apply, dims_eq, ScatterHost.cols_apply, ScatterHost.cols_apply]
  exact congrArg₂ (· - ·)
    (segSum_of _ _ (zeros_apply _) (col x3 0 slices_S2x3200000_S1x3200000_0_0) (fun e => x3 (ix2 0 e))
      (col_apply x3 0 (by omega) _) (fun e => A (ix2 k e)) (fun e => A (ix2 k e)) (fun _ => rfl) n)
    (segSum_of _ _ (zeros_apply _) (col x3 1 slices_S2x3200000_S1x3200000_1_0) (fun e => x3 (ix2 1 e))
      (col_apply x3 1 (by omega) _) (fun e => A (ix2 k e)) (fun e => A (ix2 k e)) (fun _ => rfl) n)

/-- With the array of forces for `A` the tail is the net force. -/
theorem tail_forces (disp : (⟨2, ![3200000, 3]⟩ : Shape).Idx → EReal) (a b : (⟨1, ![3200000]⟩ : Shape).Idx → EReal)
    (x3 : IVec S2x3200000 32) :
    tail (fun i => edgeForce disp a b (i 0) (i 1)) x3 = netForce (N := 100000) disp a b x3 := by
  funext i
  obtain ⟨n, k, rfl⟩ : ∃ (n : Fin 100000) (k : Fin 3), i = ix2 n k := ⟨i 0, i 1, eq_ix2 i⟩
  rw [tail_apply, netForce_apply]

end Cert.KernelIdeal.Tail

end
-- ==== Proof.KernelRun.lean ====
/-
  The idealized kernel program's run, read.

  The generated frame run leaves the kernel's output array at what the forty tiles wrote (the array of forces) and
  every other buffer at what the host lines after the kernel compute from it. Those lines read two buffers the kernel
  region hands over — its output array and the untouched endpoint argument — so the program's result is the tail
  function of the array of forces and the endpoints: the net force.
-/
import proofs.«179678_j8821862826155_2_alg».proof.Proof.KernelArray
import proofs.«179678_j8821862826155_2_alg».proof.Proof.KernelTailRead

noncomputable section

namespace Cert.KernelIdeal.Forces

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.EdgeForce

variable (m : (ℓ : Loc nD τ sig) → Buf (Elt Ideal) ℓ) (ρ : Dev nD → PrngReg)

/-- The result buffer after the host lines that follow the kernel: the tail function of the kernel's output array
    (as the region leaves it) and of the endpoint argument (which no line before it writes). -/
theorem tail_eq (c : Dev nD) :
    Pipeline.afterTail₀ cfgs (dats m) 0 (V0 m) [hostOps1] c main_v17
      = Tail.tail ((dats m 0 c).arrAt 3 cfg0.N) (m ((c : Thread nD τ).loc main_arg3)) := by
  unfold Pipeline.afterTail₀
  show StableHlo.after hostOps1 _ (Proc.devRef .tc main_v17) = _
  after_results
  have h3 : Pipeline.withArrays (cfgs 0).spec c (V0 m c) (fun w => (dats m 0 c).arrAt w (cfgs 0).N)
      (Proc.devRef .tc main_arg3) = m ((c : Thread nD τ).loc main_arg3) :=
    (Pipeline.withArrays_of_ne _ c (V0 m c) _ main_arg3
      (by exact (by decide : ∀ w, Pipeline.arrRef spec0 w ≠ main_arg3))).trans (V_main_arg3 m c)
  have hA : Pipeline.withArrays (cfgs 0).spec c (V0 m c) (fun w => (dats m 0 c).arrAt w (cfgs 0).N)
      (Proc.devRef .tc main_v3) = (dats m 0 c).arrAt 3 cfg0.N :=
    Pipeline.withArrays_arr spec0 launch0.win.arr_inj c _ _ 3
  rw [h3, hA]
  rfl

/-- THE PROGRAM'S RESULT is the net force of the argument arrays. -/
theorem result_eq (c : Dev nD) :
    Pipeline.afterTail₀ cfgs (dats m) 0 (V0 m) [hostOps1] c main_v17
      = netForce (N := 100000) (m ((c : Thread nD τ).loc main_arg0)) (m ((c : Thread nD τ).loc main_arg1))
          (m ((c : Thread nD τ).loc main_arg2)) (m ((c : Thread nD τ).loc main_arg3)) := by
  rw [tail_eq, final]
  exact Tail.tail_forces _ _ _ _

/-- THE RUN: every weakly fair execution terminates with the result buffer at the net force of the argument arrays
    and the arguments unchanged. -/
theorem run : θ_run defs (onTc (τ := τ) (main (F := Ideal))) ⟨m, fun _ => 0, ρ⟩ fun r => ∀ c : Dev nD,
      r.2.mem ((c.tc : Thread nD τ).loc main_v17)
        = netForce (N := 100000) (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v17 (Pipeline.mem_restRefs_of main_v17 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Forces

end
-- ==== Proof.lean ====
/-
  The certificate of the edge-force kernel against its gradient reference.

  Both programs compute, for a graph of `E` edges between `N` atoms, the net force on every atom from the per-edge
  energy `a·r² + b·exp(-r²)`, `r²` the squared length of the edge's displacement `d`: the force on an edge is minus the
  gradient in `d`, and an atom's net force is the sum over the edges that start at it minus the sum over the edges
  that end at it.

  The kernel program writes the force in closed form, `d_k · (2 · (b·exp(0 - r²) - a))`, tile by tile over a `[3, E]`
  layout, then sums each of the three rows per endpoint with two column scatters and transposes the `[3, N]`
  difference. The reference differentiates the energy — `-(d_k·c + c·d_k)` with `c = -((b·1)·exp(-r²)) + a·1` — over
  the `[E, 3]` layout and sums rows with two row scatters.

  On the extended reals a scatter-add read at an entry is the operand's entry plus the sum of the updates landing
  there, whatever the layout, so both results are the same two segment sums of a per-edge quantity; and the two
  per-edge quantities agree when the inputs are real numbers, which the precondition (every float input finite)
  gives. Finiteness is needed: at `a = b = +∞` and `d_k > 0` the closed form is `-∞` and minus the gradient `+∞`
  (`⊤ - ⊤` and `-⊤ + ⊤` are both `⊥` there).

  The three frames are the generated ones (the reference's is its generated run with the result dropped); the
  idealization rewrote nothing, so `preserves` is trivial.
-/
import proofs.«179678_j8821862826155_2_alg».proof.Defs
import proofs.«179678_j8821862826155_2_alg».proof.Proof.Gen.Kernel
import proofs.«179678_j8821862826155_2_alg».proof.Proof.Gen.Kernel.Skeleton
import proofs.«179678_j8821862826155_2_alg».proof.Proof.Gen.Kernel.Launch
import proofs.«179678_j8821862826155_2_alg».proof.Proof.Gen.Kernel.Points
import proofs.«179678_j8821862826155_2_alg».proof.Proof.Gen.Kernel.Frame
import proofs.«179678_j8821862826155_2_alg».proof.Proof.Gen.KernelIdeal
import proofs.«179678_j8821862826155_2_alg».proof.Proof.Gen.KernelIdeal.Skeleton
import proofs.«179678_j8821862826155_2_alg».proof.Proof.Gen.KernelIdeal.Launch
import proofs.«179678_j8821862826155_2_alg».proof.Proof.Gen.KernelIdeal.Points
import proofs.«179678_j8821862826155_2_alg».proof.Proof.Gen.KernelIdeal.Frame
import proofs.«179678_j8821862826155_2_alg».proof.Proof.Gen.ReferenceIdeal
import proofs.«179678_j8821862826155_2_alg».proof.Proof.Gen.ReferenceIdeal.Run
import proofs.«179678_j8821862826155_2_alg».proof.Proof.Gen.ReferenceIdeal.Read
import proofs.«179678_j8821862826155_2_alg».proof.Proof.Gen.Pre_finite_inputs
import proofs.«179678_j8821862826155_2_alg».proof.Proof.Finite
import proofs.«179678_j8821862826155_2_alg».proof.Proof.Reference
import proofs.«179678_j8821862826155_2_alg».proof.Proof.KernelRun
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end at the net force of the argument arrays: the kernel program always, the reference
    when the float inputs are real numbers, which the precondition says of the kernel program's memory and the
    agreement of the two memories carries over. -/
theorem algebraic : Cert.algebraic_KernelIdeal_ReferenceIdeal := by
  intro m ρ m' ρ' hpre hagree
  refine ⟨_, Cert.KernelIdeal.Forces.run m ρ, ?_⟩
  refine (θ_run Cert.ReferenceIdeal.defs _ _).mono (fun _ h c => ⟨(h c).1.trans ?_, (h c).2⟩)
    (Cert.ReferenceIdeal.Value.run (F := Ideal) m' ρ')
  obtain ⟨hd, ha, hb⟩ := Cert.FiniteInputs.reals_of_pre _ _ _ _ _ (hpre c)
  obtain ⟨g0, g1, g2, g3, -⟩ := hagree c
  rw [g0, g1, g2, g3]
  exact (Cert.ReferenceIdeal.Read.val_main_v29_eq _ _ _ _).trans
    (Cert.ReferenceIdeal.RefValue.result_eq _ _ _ _ hd ha hb)

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
